-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S100000x128 : Shape := ⟨2, ![100000, 128]⟩
abbrev S100000 : Shape := ⟨1, ![100000]⟩
abbrev S1600000 : Shape := ⟨1, ![1600000]⟩

class Facts : Prop where
  reducesTo_S_S_d : S_.ReducesTo [] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S1600000 .f32) (main_v12 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v12 main_v16
  let main_v18 : FVec F S1600000 .f32 := Host.absf main_arg4
  let main_cst_6 : FVec F S_ .f32 := constant S_ .f32 0x7F800000#32
  let main_v19 : FVec F S1600000 .f32 := broadcastInDim S1600000 ![] bcast_S_S1600000 main_cst_6
  let main_v20 : IVec S1600000 1 := cmpf .olt main_v18 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v17 main_v21
  main_v22

def fn {F : FTy → Type} [FloatOps F] (main_arg0 : FVec F S_ .f32) (main_arg1 : FVec F S100000x128 .f32) (main_arg2 : FVec F S100000x128 .f32) (main_arg3 : FVec F S100000 .f32) (main_arg4 : FVec F S1600000 .f32) (main_arg5 : IVec S1600000 32) (main_arg6 : IVec S1600000 32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S100000x128 .f32 := Host.absf main_arg1
  let main_cst_0 : FVec F S_ .f32 := constant S_ .f32 0x7F800000#32
  let main_v4 : FVec F S100000x128 .f32 := broadcastInDim S100000x128 ![] bcast_S_S100000x128 main_cst_0
  let main_v5 : IVec S100000x128 1 := cmpf .olt main_v3 main_v4
  let main_c_1 : IVec S_ 1 := constantI S_ 1 1#1
  let main_v6 : IVec S_ 1 := (fun x v => Host.reduce IntOp.andi x v reducesTo_S100000x128_S_d0_1 h_S_) main_v5 main_c_1
  let main_v7 : IVec S_ 1 := andi main_v2 main_v6
  let main_v8 : FVec F S100000x128 .f32 := Host.absf main_arg2
  let main_cst_2 : FVec F S_ .f32 := constant S_ .f32 0x7F800000#32
  let main_v9 : FVec F S100000x128 .f32 := broadcastInDim S100000x128 ![] bcast_S_S100000x128 main_cst_2
  let main_v10 : IVec S100000x128 1 := cmpf .olt main_v8 main_v9
  let main_c_3 : IVec S_ 1 := constantI S_ 1 1#1
  let main_v11 : IVec S_ 1 := (fun x v => Host.reduce IntOp.andi x v reducesTo_S100000x128_S_d0_1 h_S_) main_v10 main_c_3
  let main_v12 : IVec S_ 1 := andi main_v7 main_v11
  let main_v13 : FVec F S100000 .f32 := Host.absf main_arg3
  let main_cst_4 : FVec F S_ .f32 := constant S_ .f32 0x7F800000#32
  let main_v14 : FVec F S100000 .f32 := broadcastInDim S100000 ![] bcast_S_S100000 main_cst_4
  let main_v15 : IVec S100000 1 := cmpf .olt main_v13 main_v14
  let main_c_5 : IVec S_ 1 := constantI S_ 1 1#1
  fn_part1 (F := F) main_arg4 main_v12 main_v15 main_c_5
-- ==== Kernel.lean ====
abbrev S_ : Shape := ⟨0, ![]⟩
abbrev S100000x128 : Shape := ⟨2, ![100000, 128]⟩
abbrev S100000 : Shape := ⟨1, ![100000]⟩
abbrev S1600000 : Shape := ⟨1, ![1600000]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 25
  | .vmem => 10
  | .smem => 0
  | _ => 0

abbrev bufTy : (tb : Table) → Fin (tcTables nBuf tb) → BufTy
  | .hbm, ⟨0, _⟩ => ⟨S_, .f32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x1, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S_ : Shape := ⟨0, ![]⟩
abbrev S100000x128 : Shape := ⟨2, ![100000, 128]⟩
abbrev S100000 : Shape := ⟨1, ![100000]⟩
abbrev S1600000 : Shape := ⟨1, ![1600000]⟩
abbrev S100000x1 : Shape := ⟨2, ![100000, 1]⟩
abbrev S1600000x1 : Shape := ⟨2, ![1600000, 1]⟩
abbrev S1600000x128 : Shape := ⟨2, ![1600000, 128]⟩

abbrev nBuf : Space → Nat
  | .hbm => 39
  | .vmem => 0
  | .smem => 0
  | _ => 0

abbrev bufTy : (tb : Table) → Fin (tcTables nBuf tb) → BufTy
  | .hbm, ⟨0, _⟩ => ⟨S_, .f32⟩
  | .hbm, ⟨1, _⟩ => ⟨S100000x128, .f32⟩
  | .hbm, ⟨2, _⟩ => ⟨S100000x128, .f32⟩
  | .hbm, ⟨3, _⟩ => ⟨S100000, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S100000, .f32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S100000x1, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S_, .f32⟩
  | .hbm, ⟨33, _⟩ => ⟨S100000x1, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Update.lean ====
/-
  One step of the graph diffusion, entry by entry. For a node `r` and a feature `c`,

      f[r, c] = (σ(α[r]) · ½) · (ax[r, c] − x[r, c]) + x0[r, c],

  where `σ` is the logistic function, `α` holds one number per node, and `ax`, `x`, `x0` are node-by-feature arrays
  (`ax` the neighbourhood aggregate of `x`; this file does not look inside it). The product is grouped exactly as
  written: the per-node factor `σ(α[r]) · ½` is formed first, then multiplied by the difference, then `x0` is added.
  No law of the extended reals is used on that outer shape, so it holds with infinite entries as well.

  The one law stated here is about `σ` alone. On the extended reals the logistic function IS the quotient
  `1 / (1 + e^(−a))` (with `σ(−∞) = 0`, `σ(+∞) = 1` by the conventions of the quotient and of the exponential), so a
  program that writes the quotient out — negate, exponential, add one, divide one by it — computes `σ`, at every
  extended real `a`. The "one" of that quotient is the f32 word `0x3F800000`, which denotes the real number 1.
-/
import Idealize.ShloMosaic.PureOps.Ideal
import Idealize.ShloMosaic.PureOps.IdealRules

noncomputable section

namespace Cert.Diffusion

open Idealize.ShloMosaic

/-- One number per node. -/
abbrev Nodes : Shape := ⟨1, ![100000]⟩
/-- One number per node and feature. -/
abbrev Feat : Shape := ⟨2, ![100000, 128]⟩

/-- The node a node-by-feature index belongs to. -/
def rowOf (i : Feat.Idx) : Nodes.Idx := fun a => match a with
  | ⟨0, _⟩ => ⟨(i 0).val, (i 0).isLt⟩

section
variable {F : FTy → Type} [FloatOps F]

/-- The diffusion step at every entry: `(σ(α[r]) · ½) · (ax[r, c] − x[r, c]) + x0[r, c]`, grouped as written. The half is
    the f32 word `0x3F000000`; it is the same word wherever this function is met, so it is never evaluated. -/
def update (α : Nodes.Idx → F .f32) (ax x x0 : Feat.Idx → F .f32) : Feat.Idx → F .f32 := fun i =>
  FloatOps.addf
    (FloatOps.mulf (FloatOps.mulf (FloatOps.logistic (α (rowOf i))) (Scalar.ofBits .f32 0x3F000000#32))
      (FloatOps.subf (ax i) (x i)))
    (x0 i)

end

/-- The f32 word `0x3F800000` denotes the real number one. -/
theorem one_word : Ideal.ofBits .f32 0x3F800000#32 = 1 := IdealRules.sign_bit.ideal_onePat .f32

/-- The logistic function is the quotient `1 / (1 + e^(−a))` written out with the host's negation, exponential and
    division, at every extended real `a`: the definition of `σ` on the extended reals, with the word for one read. -/
theorem logistic_eq_quotient (a : Ideal .f32) :
    FloatOps.logistic a
      = FloatOps.hostDivf (FloatOps.ofBits (F := Ideal) .f32 0x3F800000#32)
          (FloatOps.addf (FloatOps.ofBits (F := Ideal) .f32 0x3F800000#32) (FloatOps.hostUnary .exp (FloatOps.hostNegf a))) := by
  simp only [Ideal.logistic_def, Ideal.hostDivf_def, Ideal.addf_def, Ideal.hostUnary_exp_def, Ideal.hostNegf_def,
    Ideal.negf_def, Ideal.ofBits_def, one_word, Ideal.logistic]

end Cert.Diffusion

end
-- ==== Proof.RefUpdate.lean ====
/-
  The reference computes the diffusion step. Its last operations are, entry by entry, an addition of `x0` to a product
  of a per-node factor (a quotient `1 / (1 + e^(−α[r]))` times the half, laid out as a column and repeated along the
  features) with the difference `ax − x`. Reading each operation at an index `(r, c)`, the column and the repetition
  only move the index to the node `r`; what is left is `(1 / (1 + e^(−α[r])) · ½) · (ax[r, c] − x[r, c]) + x0[r, c]`,
  and the quotient is the logistic function. The aggregate `ax` is whatever the reference's earlier operations left:
  it is carried as one unopened value.
-/
import proofs.«119002_j51333449121987_1_alg».proof.Proof.Gen.ReferenceIdeal.Read
import proofs.«119002_j51333449121987_1_alg».proof.Proof.Update

noncomputable section

namespace Cert.Diffusion.Ref

open Cert.ReferenceIdeal Cert.ReferenceIdeal.Gen Cert.ReferenceIdeal.Read Cert.Diffusion Idealize.ShloMosaic

/-- Through the column and the repetition along the features, entry `(r, c)` reads the per-node vector at `r`. -/
theorem node_of_entry (i : S100000x128.Idx) : idx_main_v6 (idx_main_v23 i) = rowOf i :=
  funext fun a => match a with | ⟨0, _⟩ => rfl

/-- The reference's result is the diffusion step of its arguments, its own aggregate in the place of `ax`. -/
theorem result_eq_update (x1 x2 : (⟨S100000x128, .f32⟩ : BufTy).Contents (Elt Ideal)) (x3 : (⟨S100000, .f32⟩ : BufTy).Contents (Elt Ideal))
    (x4 : (⟨S1600000, .f32⟩ : BufTy).Contents (Elt Ideal)) (x5 x6 : (⟨S1600000, .i32⟩ : BufTy).Contents (Elt Ideal)) :
    val_main_v25 (F := Ideal) x1 x2 x3 x4 x5 x6 = update (F := Ideal) x3 (val_main_v19 (F := Ideal) x1 x4 x5 x6) x1 x2 := by
  funext i
  rw [val_main_v25_apply, val_main_v24_apply, val_main_v23_apply, val_main_v22_apply, val_main_v21_apply, val_main_v6_apply,
    val_main_v5_apply, val_main_v4_apply, val_main_cst_0_apply, val_main_v3_apply, val_main_v2_apply, val_main_cst_apply,
    val_main_v1_apply, val_main_v0_apply, val_main_v20_apply, val_main_cst_3_apply, node_of_entry]
  unfold update
  rw [logistic_eq_quotient]

end Cert.Diffusion.Ref

end
-- ==== Proof.KernelEntry.lean ====
/-
  What the kernel's pipelined call finds in the two arrays that the host wrote before it.

  Before the call the host forms the neighbourhood aggregate `ax`: every edge `e` takes the row of `x` at its source
  node (a negative source counted from the end), scales it by the edge's weight, and adds it into the row of its target
  node, starting from zeros. That whole line of operations is named ONCE here, `aggregate`, as a function of `x`, the
  weights and the two index vectors, and is never looked into: the reference forms the same value by the same
  operations, so only its identity matters. The host also lays the per-node vector `α` out as a column.

  The call then finds `aggregate x w targets sources` in the array of its third operand and the column of `α` in the
  array of its fourth: each is the composition of the host operations that wrote it, read off the program's line of
  operations one result at a time.
-/
import proofs.«119002_j51333449121987_1_alg».proof.Proof.Gen.KernelIdeal.Value
import Idealize.ShloMosaic.Lib.StableHlo.Run

noncomputable section

namespace Cert.Diffusion.Kern

open Cert.KernelIdeal Cert.KernelIdeal.Gen Idealize.ShloMosaic Idealize.ShloMosaic.TcCoe Idealize.SL.Sem Idealize.ShloMosaic.StableHlo

variable {F : FTy → Type} [FloatOps F]

/-- The neighbourhood aggregate, as the host operations before the call compute it from the features `x`, the edge
    weights `w` and the edges' target and source nodes: gather the source rows (a negative source wrapped by the number
    of nodes), scale by the weights, add into the target rows of an array of zeros. -/
def aggregate (x : (⟨S100000x128, .f32⟩ : BufTy).Contents (Elt F)) (w : (⟨S1600000, .f32⟩ : BufTy).Contents (Elt F))
    (targets sources : (⟨S1600000, .i32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 targets)
    (mulf
      (broadcastInDim S1600000x128 ![0, 1] bcast_S1600000x1_S1600000x128_0_1
        (broadcastInDim S1600000x1 ![0] bcast_S1600000_S1600000x1_0 w))
      (Host.gather gather_S100000x128_S1600000x1_S1600000x128_1_0_n_n_0_1_1128 x
        (broadcastInDim S1600000x1 ![0] bcast_S1600000_S1600000x1_0
          (select
            (cmpi .slt sources (broadcastInDim S1600000 ![] bcast_S_S1600000 (constantI S_ 32 0#32)))
            (addi sources (broadcastInDim S1600000 ![] bcast_S_S1600000 (constantI S_ 32 100000#32)))
            sources))))

variable (m : (ℓ : Loc nD τ sig) → Buf (Elt F) ℓ)

/-- The call finds the aggregate of the argument arrays in its third operand's array. -/
theorem entry_aggregate (c : Dev nD) :
    (V m c main_v12 : (⟨S100000x128, .f32⟩ : BufTy).Contents (Elt F))
      = aggregate (m ((c : Thread nD τ).loc main_arg1)) (m ((c : Thread nD τ).loc main_arg4))
          (m ((c : Thread nD τ).loc main_arg5)) (m ((c : Thread nD τ).loc main_arg6)) := by
  unfold aggregate
  dsimp only [V, hostOps0]
  after_results_simp <;> rfl

/-- The call finds the per-node vector, laid out as a column, in its fourth operand's array. -/
theorem entry_column (c : Dev nD) :
    (V m c main_v13 : (⟨S100000x1, .f32⟩ : BufTy).Contents (Elt F))
      = broadcastInDim S100000x1 ![0] bcast_S100000_S100000x1_0 (m ((c : Thread nD τ).loc main_arg3)) := by
  dsimp only [V, hostOps0]
  after_results_simp <;> rfl

end Cert.Diffusion.Kern

end
-- ==== Proof.KernelValue.lean ====
/-
  What the kernel's result array holds after the run: the diffusion step of the argument arrays, at every entry.

  The pipelined call walks twenty grid points. At point `t` each of its five windows — the features `x`, the initial
  features `x0`, the aggregate `ax`, the column of `α`, and the result — is at row-block `t` (rows `5000·t` to
  `5000·t + 4999`) and, having a single block of columns, at column-block 0. So entry `(p, q)` of a block is entry
  `(5000·t + p, q)` of its array, the same entry for the four node-by-feature windows, and row `5000·t + p` of the
  column.

  The body leaves in the result's block, at `(p, q)`, the number
      (σ(column[p, 0]) · ½) · (ax-block[p, q] − x-block[p, q]) + x0-block[p, q],
  which is therefore the diffusion step's value at entry `(5000·t + p, q)` of the arrays the call found; so what point
  `t` writes back is block `t` of that ONE array. Every entry `(r, q)` of the result lies in the block of point
  `r / 5000`, so the twenty blocks cover the array and it ends holding the diffusion step everywhere. Finally the
  arrays the call found are the arguments themselves for `x` and `x0`, the host's aggregate for `ax`, and `α` as a
  column.
-/
import proofs.«119002_j51333449121987_1_alg».proof.Proof.Gen.KernelIdeal.Value
import proofs.«119002_j51333449121987_1_alg».proof.Proof.KernelEntry
import proofs.«119002_j51333449121987_1_alg».proof.Proof.Update
import Idealize.ShloMosaic.Lib.Pipeline.Value

noncomputable section

namespace Cert.Diffusion.Kern

open Cert.KernelIdeal Cert.KernelIdeal.Gen Cert.KernelIdeal.Value Cert.Diffusion
open Idealize.ShloMosaic Idealize.ShloMosaic.TcCoe Idealize.SL.Sem
open Idealize.ShloMosaic.Pipeline (Dat)

variable {F : FTy → Type} [FloatOps F]

/-! ## One entry of one block -/

theorem zero_offset : (![0, 0] : Fin 2 → Nat) = fun _ => 0 := funext fun a => by fin_cases a <;> rfl

/-- At every grid point each window is at the point's own row-block and at column-block 0. -/
theorem block_of_point : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The per-node vector laid out as a column, read at a row: the vector at that node. -/
theorem column_apply (α : (⟨S100000, .f32⟩ : BufTy).Contents (Elt F)) (p : S100000x1.Idx) (i : Feat.Idx)
    (h : (p 0).val = (i 0).val) :
    broadcastInDim S100000x1 ![0] bcast_S100000_S100000x1_0 α p = α (rowOf i) :=
  broadcastInDim_apply _ bcast_S100000_S100000x1_0 α p (rowOf i) (fun a => match a with
    | ⟨0, _⟩ => by show (i 0).val = if (100000 : Nat) = 1 then 0 else (p 0).val; rw [if_neg (by decide), h])

/-- What the body leaves at an entry of the result's block is the diffusion step's value at an entry of the arrays,
    once each of the four loaded blocks, at that block entry, is its array at that array entry. -/
theorem block_entry (P0 : Vec F S5000x1 .f32) (P1 P2 P3 : Vec F S5000x128 .f32)
    (α : Nodes.Idx → F .f32) (ax x x0 : Feat.Idx → F .f32) (j : S5000x128.Idx) (i : Feat.Idx)
    (h0 : P0 (ix4_0 j) = α (rowOf i)) (h1 : P1 (ix4_1 j) = ax i) (h2 : P2 (ix4_2 j) = x i) (h3 : P3 (ix4_3 j) = x0 i) :
    E4 P0 P1 P2 P3 j = update α ax x x0 i := by
  unfold update
  dsimp only [E4]
  rw [h0, h1, h2, h3]

/-! ## What a point writes back -/

variable (m : (ℓ : Loc nD τ sig) → Buf (Elt F) ℓ) (ρ : Dev nD → PrngReg)

/-- What point `t` writes back is block `t` of the diffusion step of the arrays the call found. -/
theorem flushed_eq (c : Dev nD) (t : Fin cfg0.N) :
    (dats m 0 c).flushed 4 t = ((cfg0.win 4).blk t).view.read (Elt F)
      (update (F := F) (m ((c : Thread nD τ).loc main_arg3)) (V m c main_v12) (V m c main_arg1) (V m c main_arg2)) := by
  rw [flushed4]
  unfold out0_4
  obtain ⟨a0, a1, b0, b1, c0, c1, d0, d1, e0, e1⟩ := block_of_point t
  funext j
  have hj0 : (j 0).val < 5000 := (j 0).isLt
  have hj1 : (j 1).val < 128 := (j 1).isLt
  show View.canon ([⟨r0_1, k0_pay1 (View.ld (iblk m c 3 t) r0_0) (View.ld (iblk m c 2 t) r0_1) (View.ld (iblk m c 0 t) r0_1) (View.ld (iblk m c 1 t) r0_1)⟩] : List (View.Piece (Elt F) S5000x128 .f32)) j
    = update (F := F) (m ((c : Thread nD τ).loc main_arg3)) (V m c main_v12) (V m c main_arg1) (V m c main_arg2) (((cfg0.win 4).blk t).view.emb j)
  refine (canon4_eq _ _ _ _ j).trans (block_entry _ _ _ _ _ _ _ _ j _ ?_ ?_ ?_ ?_)
  · -- the column of `α`, at row `5000·t + p`
    rw [View.ld_unit_zero (S := S5000x1) zero_offset]
    show (V m c main_v13 : (⟨S100000x1, .f32⟩ : BufTy).Contents (Elt F)) (((cfg0.win 3).blk t).view.emb (ix4_0 j)) = _
    rw [entry_column m c]
    refine column_apply _ _ _ ?_
    show win0_3.index t (0 : Fin 2) * 5000 + 1 * (j 0).val = win0_4.index t (0 : Fin 2) * 5000 + 1 * (j 0).val
    omega
  · -- the aggregate's block
    rw [View.ld_unit_zero (S := S5000x128) zero_offset]
    show V m c main_v12 (((cfg0.win 2).blk t).view.emb (ix4_1 j)) = V m c main_v12 (((cfg0.win 4).blk t).view.emb j)
    refine congrArg _ (funext fun a => Fin.ext ?_)
    match a with
    | ⟨0, _⟩ => show win0_2.index t (0 : Fin 2) * 5000 + 1 * (j 0).val = win0_4.index t (0 : Fin 2) * 5000 + 1 * (j 0).val; omega
    | ⟨1, _⟩ => show win0_2.index t (1 : Fin 2) * 128 + 1 * (j 1).val = win0_4.index t (1 : Fin 2) * 128 + 1 * (j 1).val; omega
  · -- the features' block
    rw [View.ld_unit_zero (S := S5000x128) zero_offset]
    show V m c main_arg1 (((cfg0.win 0).blk t).view.emb (ix4_2 j)) = V m c main_arg1 (((cfg0.win 4).blk t).view.emb j)
    refine congrArg _ (funext fun a => Fin.ext ?_)
    match a with
    | ⟨0, _⟩ => show win0_0.index t (0 : Fin 2) * 5000 + 1 * (j 0).val = win0_4.index t (0 : Fin 2) * 5000 + 1 * (j 0).val; omega
    | ⟨1, _⟩ => show win0_0.index t (1 : Fin 2) * 128 + 1 * (j 1).val = win0_4.index t (1 : Fin 2) * 128 + 1 * (j 1).val; omega
  · -- the initial features' block
    rw [View.ld_unit_zero (S := S5000x128) zero_offset]
    show V m c main_arg2 (((cfg0.win 1).blk t).view.emb (ix4_3 j)) = V m c main_arg2 (((cfg0.win 4).blk t).view.emb j)
    refine congrArg _ (funext fun a => Fin.ext ?_)
    match a with
    | ⟨0, _⟩ => show win0_1.index t (0 : Fin 2) * 5000 + 1 * (j 0).val = win0_4.index t (0 : Fin 2) * 5000 + 1 * (j 0).val; omega
    | ⟨1, _⟩ => show win0_1.index t (1 : Fin 2) * 128 + 1 * (j 1).val = win0_4.index t (1 : Fin 2) * 128 + 1 * (j 1).val; omega

/-! ## The blocks cover the array -/

/-- An entry of the result array is in point `t`'s block iff each coordinate is in the block's range on its axis. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v14).slice (win0_4.rect t)).set ↔ _
  rw [View.set_slice_whole, Rect.mem_set_unit]
  exact Iff.rfl

/-- Entry `(r, q)` is in the block of point `r / 5000`. -/
theorem covered (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := by show _ < grid0.N; rw [N_0]; omega
  obtain ⟨-, -, -, -, -, -, -, -, e0, e1⟩ := block_of_point ⟨(i 0).val / 5000, hN⟩
  have e0' : win0_4.index ⟨(i 0).val / 5000, hN⟩ (0 : Fin 2) = (i 0).val / 5000 := e0
  refine ⟨⟨(i 0).val / 5000, hN⟩, flush0_4 _, ?_⟩
  rw [mem_block]
  intro a
  match a with
  | ⟨0, _⟩ => show win0_4.index ⟨(i 0).val / 5000, hN⟩ (0 : Fin 2) * 5000 ≤ (i 0).val ∧ (i 0).val < win0_4.index ⟨(i 0).val / 5000, hN⟩ (0 : Fin 2) * 5000 + 5000; omega
  | ⟨1, _⟩ => show win0_4.index ⟨(i 0).val / 5000, hN⟩ (1 : Fin 2) * 128 ≤ (i 1).val ∧ (i 1).val < win0_4.index ⟨(i 0).val / 5000, hN⟩ (1 : Fin 2) * 128 + 128; omega

/-! ## The array, and the run -/

/-- After the run the result array holds the diffusion step of the argument arrays, the host's aggregate in the
    place of `ax`. -/
theorem final (c : Dev nD) :
    (dats m 0 c).arrAt 4 cfg0.N
      = update (F := F) (m ((c : Thread nD τ).loc main_arg3))
          (aggregate (m ((c : Thread nD τ).loc main_arg1)) (m ((c : Thread nD τ).loc main_arg4))
            (m ((c : Thread nD τ).loc main_arg5)) (m ((c : Thread nD τ).loc main_arg6)))
          (m ((c : Thread nD τ).loc main_arg1)) (m ((c : Thread nD τ).loc main_arg2)) := by
  rw [(dats m 0 c).arrAt_eq_of_cover 4 _ (fun t _ => flushed_eq m c t) covered, entry_aggregate, V_main_arg1, V_main_arg2]

/-- Every weakly fair execution of the kernel's program terminates with the result array at the diffusion step of the
    arguments, and the arguments unchanged. -/
theorem run : θ_run defs (onTc (τ := τ) (main (F := F))) ⟨m, fun _ => 0, ρ⟩ fun r => ∀ c : Dev nD,
      r.2.mem ((c : Thread nD τ).loc main_v14)
        = update (F := F) (m ((c : Thread nD τ).loc main_arg3))
            (aggregate (m ((c : Thread nD τ).loc main_arg1)) (m ((c : Thread nD τ).loc main_arg4))
              (m ((c : Thread nD τ).loc main_arg5)) (m ((c : Thread nD τ).loc main_arg6)))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Diffusion.Kern

end
-- ==== Proof.Aggregate.lean ====
/-
  The two programs form the same neighbourhood aggregate. The kernel's host operations before its call and the
  reference's operations are, one for one, the same line: the same zero array, the same layout of the index vectors as
  columns, the same wrap of a negative source node by the number of nodes, the same gather of source rows, the same
  scaling by the weights laid out along the features, the same accumulation into the target rows. The two texts differ
  only in the names of their side conditions (that a shape broadcasts to another, that the gather's and the
  accumulation's dimension records are well formed), which are propositions and so carry no content. Hence the two
  values are equal outright, and nothing about gathering or accumulating is used.
-/
import proofs.«119002_j51333449121987_1_alg».proof.Proof.Gen.ReferenceIdeal.Read
import proofs.«119002_j51333449121987_1_alg».proof.Proof.KernelEntry

noncomputable section

namespace Cert.Diffusion

open Idealize.ShloMosaic

variable {F : FTy → Type} [FloatOps F]

/-- The kernel's aggregate is the reference's: the same operations of the same arguments. -/
theorem aggregate_eq (x : (⟨Cert.KernelIdeal.S100000x128, .f32⟩ : BufTy).Contents (Elt F))
    (w : (⟨Cert.KernelIdeal.S1600000, .f32⟩ : BufTy).Contents (Elt F))
    (targets sources : (⟨Cert.KernelIdeal.S1600000, .i32⟩ : BufTy).Contents (Elt F)) :
    Kern.aggregate (F := F) x w targets sources = Cert.ReferenceIdeal.Read.val_main_v19 (F := F) x w targets sources := rfl

end Cert.Diffusion

end
-- ==== Proof.lean ====
/-
  One step of a graph diffusion: for node `r` and feature `c`,

      f[r, c] = (σ(α[r]) · ½) · (ax[r, c] − x[r, c]) + x0[r, c],

  `σ` the logistic function and `ax` the neighbourhood aggregate of `x` (each edge adds its weight times its source
  node's row of `x` into its target node's row). Both programs form `ax` on the host by the same operations. They
  differ in where the step itself is computed and in how `σ` is written.

  The kernel computes the step inside a pipelined call over twenty blocks of 5000 rows, with `σ` as one operation. Each
  block it writes back is that block of the step of the whole arrays, and the blocks cover the result, so the result
  array holds the step at every entry (Proof/KernelValue.lean, over Proof/KernelEntry.lean for what the host left in the
  call's arrays).

  The reference computes the step on the host with `σ` written out as the quotient `1 / (1 + e^(−α))`. On the
  extended reals the logistic function is that quotient at every argument, infinite ones included, and the quotient's
  "one" is the real number one; so the reference's result is the same step (Proof/RefUpdate.lean, over the law in
  Proof/Update.lean).

  The two aggregates are one value (Proof/Aggregate.lean). The outer shape of the step — the factor formed first, then
  the product with the difference, then the sum — is the same on both sides, so no law of the extended reals is needed
  there and the hypothesis that the inputs are finite is never used.

  The kernel's two frames are the generated ones; the reference's is its generated run with the result dropped. The
  idealized kernel is the kernel's own text read over the extended reals, with no rewrite to account for.
-/
import proofs.«119002_j51333449121987_1_alg».proof.Defs
import proofs.«119002_j51333449121987_1_alg».proof.Proof.Gen.Kernel
import proofs.«119002_j51333449121987_1_alg».proof.Proof.Gen.Kernel.Skeleton
import proofs.«119002_j51333449121987_1_alg».proof.Proof.Gen.Kernel.Launch
import proofs.«119002_j51333449121987_1_alg».proof.Proof.Gen.Kernel.Points
import proofs.«119002_j51333449121987_1_alg».proof.Proof.Gen.Kernel.Frame
import proofs.«119002_j51333449121987_1_alg».proof.Proof.Gen.KernelIdeal
import proofs.«119002_j51333449121987_1_alg».proof.Proof.Gen.KernelIdeal.Skeleton
import proofs.«119002_j51333449121987_1_alg».proof.Proof.Gen.KernelIdeal.Launch
import proofs.«119002_j51333449121987_1_alg».proof.Proof.Gen.KernelIdeal.Points
import proofs.«119002_j51333449121987_1_alg».proof.Proof.Gen.KernelIdeal.Frame
import proofs.«119002_j51333449121987_1_alg».proof.Proof.Gen.ReferenceIdeal
import proofs.«119002_j51333449121987_1_alg».proof.Proof.Gen.Pre_finite_inputs
import proofs.«119002_j51333449121987_1_alg».proof.Proof.Gen.KernelIdeal.Value
import proofs.«119002_j51333449121987_1_alg».proof.Proof.Gen.ReferenceIdeal.Run
import proofs.«119002_j51333449121987_1_alg».proof.Proof.Gen.ReferenceIdeal.Read
import Idealize.ShloMosaic.Adequacy
import Idealize.ShloMosaic.Init

import proofs.«119002_j51333449121987_1_alg».proof.Proof.Update
import proofs.«119002_j51333449121987_1_alg».proof.Proof.RefUpdate
import proofs.«119002_j51333449121987_1_alg».proof.Proof.KernelEntry
import proofs.«119002_j51333449121987_1_alg».proof.Proof.KernelValue
import proofs.«119002_j51333449121987_1_alg».proof.Proof.Aggregate

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run to a named result, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the diffusion step of those arguments in their
    result arrays: the kernel by its blocks, the reference by reading its operations, the logistic function being the
    quotient the reference writes out and the two aggregates being one value. -/
theorem algebraic : Cert.algebraic_KernelIdeal_ReferenceIdeal := by
  intro m ρ m' ρ' _ hagree
  refine ⟨_, Cert.Diffusion.Kern.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨-, h1, h2, h3, h4, h5, h6⟩ := hagree c
  rw [Cert.ReferenceIdeal.Read.val_main_v25_eq, Cert.Diffusion.Ref.result_eq_update, ← Cert.Diffusion.aggregate_eq,
    h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
